-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S1024 .f32) (main_arg5 : FVec F S1024x512 .f32) (main_arg6 : FVec F S512 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x512 .f32) (main_arg1 : FVec F S512x2048 .f32) (main_arg2 : FVec F S2048 .f32) (main_arg3 : FVec F S2048x1024 .f32) (main_arg4 : FVec F S1024 .f32) (main_arg5 : FVec F S1024x512 .f32) (main_arg6 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_v13 main_v16
-- ==== Kernel.lean ====
abbrev S8192x512 : Shape := ⟨2, ![8192, 512]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S1x2048 : Shape := ⟨2, ![1, 2048]⟩
abbrev S1x1024 : Shape := ⟨2, ![1, 1024]⟩
abbrev S1x512 : Shape := ⟨2, ![1, 512]⟩
abbrev S4096x512 : Shape := ⟨2, ![4096, 512]⟩
abbrev S1024x2048 : Shape := ⟨2, ![1024, 2048]⟩
abbrev S1024x1024 : Shape := ⟨2, ![1024, 1024]⟩

abbrev nBuf : Space → Nat
  | .hbm => 32
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S_, .i32⟩
  | .hbm, ⟨8, _⟩ => ⟨S_, .f32⟩
  | .hbm, ⟨9, _⟩ => ⟨S8192x512, .f32⟩
  | .hbm, ⟨10, _⟩ => ⟨S_, .i32⟩
  | .hbm, ⟨11, _⟩ => ⟨S_, .f32⟩
  | .hbm, ⟨12, _⟩ => ⟨S512x2048, .f32⟩
  | .hbm, ⟨13, _⟩ => ⟨S_, .i32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S_, .i32⟩
  | .hbm, ⟨18, _⟩ => ⟨S_, .f32⟩
  | .hbm, ⟨19, _⟩ => ⟨S2048x1024, .f32⟩
  | .hbm, ⟨20, _⟩ => ⟨S_, .i32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .i32⟩
  | .hbm, ⟨25, _⟩ => ⟨S_, .f32⟩
  | .hbm, ⟨26, _⟩ => ⟨S1024x512, .f32⟩
  | .hbm, ⟨27, _⟩ => ⟨S_, .i32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S8192x512, .f32⟩
  | .local _ .vmem, ⟨0, _⟩ => ⟨S4096x512, .f32⟩
  | .local _ .vmem, ⟨1, _⟩ => ⟨S4096x512, .f32⟩
  | .local _ .vmem, ⟨2, _⟩ => ⟨S512x2048, .f32⟩
  | .local _ .vmem, ⟨3, _⟩ => ⟨S1x2048, .f32⟩
  | .local _ .vmem, ⟨4, _⟩ => ⟨S2048x1024, .f32⟩
  | .local _ .vmem, ⟨5, _⟩ => ⟨S1x1024, .f32⟩
  | .local _ .vmem, ⟨6, _⟩ => ⟨S1024x512, .f32⟩
  | .local _ .vmem, ⟨7, _⟩ => ⟨S1x512, .f32⟩
  | .local _ .vmem, ⟨8, _⟩ => ⟨S4096x512, .f32⟩
  | .local _ .vmem, ⟨9, _⟩ => ⟨S4096x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_call3_v0 : Ref sig .tc := ⟨.hbm, 18, rfl⟩
abbrev main_v4 : Ref sig .tc := ⟨.hbm, 19, rfl⟩
abbrev main_c_3 : Ref sig .tc := ⟨.hbm, 20, rfl⟩
abbrev main_call4_v0 : Ref sig .tc := ⟨.hbm, 21, rfl⟩
abbrev main_v5 : Ref sig .tc := ⟨.hbm, 22, rfl⟩
abbrev main_v6 : Ref sig .tc := ⟨.hbm, 23, rfl⟩
abbrev main_c_4 : Ref sig .tc := ⟨.hbm, 24, rfl⟩
abbrev main_call5_v0 : Ref sig .tc := ⟨.hbm, 25, rfl⟩
abbrev main_v7 : Ref sig .tc := ⟨.hbm, 26, rfl⟩
abbrev main_c_5 : Ref sig .tc := ⟨.hbm, 27, rfl⟩
abbrev main_call6_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S8192x512_S8192x512_000_000 : S8192x512.Pads (![0, 0] : Fin 2 → Nat) ![0, 0] ![0, 0] S8192x512
  h_S_ : 0 < S_.numel
  pads_S512x2048_S512x2048_000_000 : S512x2048.Pads (![0, 0] : Fin 2 → Nat) ![0, 0] ![0, 0] S512x2048
  pads_S2048_S2048_000 : S2048.Pads (![0] : Fin 1 → Nat) ![0] ![0] S2048
  shapeCasts_S2048_S1x2048 : S2048.ShapeCasts S1x2048
  pads_S2048x1024_S2048x1024_000_000 : S2048x1024.Pads (![0, 0] : Fin 2 → Nat) ![0, 0] ![0, 0] S2048x1024
  pads_S1024_S1024_000 : S1024.Pads (![0] : Fin 1 → Nat) ![0] ![0] S1024
  shapeCasts_S1024_S1x1024 : S1024.ShapeCasts S1x1024
  pads_S1024x512_S1024x512_000_000 : S1024x512.Pads (![0, 0] : Fin 2 → Nat) ![0, 0] ![0, 0] S1024x512
  pads_S512_S512_000 : S512.Pads (![0] : Fin 1 → Nat) ![0] ![0] S512
  shapeCasts_S512_S1x512 : S512.ShapeCasts S1x512
  inb_S4096x512_S1024x512_0_0 : ∀ a, (![0, 0] : Fin 2 → Nat) a + S1024x512.size a ≤ S4096x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S4096x512_S1024x512_1024_0 : ∀ a, (![1024, 0] : Fin 2 → Nat) a + S1024x512.size a ≤ S4096x512.size a
  inb_S4096x512_S1024x512_2048_0 : ∀ a, (![2048, 0] : Fin 2 → Nat) a + S1024x512.size a ≤ S4096x512.size a
  inb_S4096x512_S1024x512_3072_0 : ∀ a, (![3072, 0] : Fin 2 → Nat) a + S1024x512.size a ≤ S4096x512.size a
  dot_S1024x512_S512x2048_S1024x2048_1_0_0_1_n_n_wf : DotDims.WF S1024x512 S512x2048 S1024x2048 [1] [0] [0] [1] [] []
  dot_S1024x2048_S2048x1024_S1024x1024_1_0_0_1_n_n_wf : DotDims.WF S1024x2048 S2048x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S8192x512.size a
  hwx0_0 : ∀ i : grid0.Coords, EltTy.bits .f32 = 32 ∨ (Rect.block (s := S8192x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .f32 = 32 ∨ (Rect.block (s := S2048x1024) S2048x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x512.size a ≤ S8192x512.size a
  hwx0_7 : ∀ i : grid0.Coords, EltTy.bits .f32 = 32 ∨ (Rect.block (s := S8192x512) S4096x512.size (cc0_transform_7 i) (hinb0_7 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S4096x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S1x2048 : Shape := ⟨2, ![1, 2048]⟩
abbrev S1x1024 : Shape := ⟨2, ![1, 1024]⟩
abbrev S1x512 : Shape := ⟨2, ![1, 512]⟩
abbrev S512x512 : Shape := ⟨2, ![512, 512]⟩
abbrev S512x1024 : Shape := ⟨2, ![512, 1024]⟩

abbrev nBuf : Space → Nat
  | .hbm => 32
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S_, .i32⟩
  | .hbm, ⟨8, _⟩ => ⟨S_, .f32⟩
  | .hbm, ⟨9, _⟩ => ⟨S8192x512, .f32⟩
  | .hbm, ⟨10, _⟩ => ⟨S_, .i32⟩
  | .hbm, ⟨11, _⟩ => ⟨S_, .f32⟩
  | .hbm, ⟨12, _⟩ => ⟨S512x2048, .f32⟩
  | .hbm, ⟨13, _⟩ => ⟨S_, .i32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S_, .i32⟩
  | .hbm, ⟨18, _⟩ => ⟨S_, .f32⟩
  | .hbm, ⟨19, _⟩ => ⟨S2048x1024, .f32⟩
  | .hbm, ⟨20, _⟩ => ⟨S_, .i32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .i32⟩
  | .hbm, ⟨25, _⟩ => ⟨S_, .f32⟩
  | .hbm, ⟨26, _⟩ => ⟨S1024x512, .f32⟩
  | .hbm, ⟨27, _⟩ => ⟨S_, .i32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S1x2048, .f32⟩
  | .local _ .vmem, ⟨4, _⟩ => ⟨S2048x1024, .f32⟩
  | .local _ .vmem, ⟨5, _⟩ => ⟨S1x1024, .f32⟩
  | .local _ .vmem, ⟨6, _⟩ => ⟨S1024x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_call3_v0 : Ref sig .tc := ⟨.hbm, 18, rfl⟩
abbrev main_v4 : Ref sig .tc := ⟨.hbm, 19, rfl⟩
abbrev main_c_3 : Ref sig .tc := ⟨.hbm, 20, rfl⟩
abbrev main_call4_v0 : Ref sig .tc := ⟨.hbm, 21, rfl⟩
abbrev main_v5 : Ref sig .tc := ⟨.hbm, 22, rfl⟩
abbrev main_v6 : Ref sig .tc := ⟨.hbm, 23, rfl⟩
abbrev main_c_4 : Ref sig .tc := ⟨.hbm, 24, rfl⟩
abbrev main_call5_v0 : Ref sig .tc := ⟨.hbm, 25, rfl⟩
abbrev main_v7 : Ref sig .tc := ⟨.hbm, 26, rfl⟩
abbrev main_c_5 : Ref sig .tc := ⟨.hbm, 27, rfl⟩
abbrev main_call6_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S8192x512_S8192x512_000_000 : S8192x512.Pads (![0, 0] : Fin 2 → Nat) ![0, 0] ![0, 0] S8192x512
  h_S_ : 0 < S_.numel
  pads_S512x2048_S512x2048_000_000 : S512x2048.Pads (![0, 0] : Fin 2 → Nat) ![0, 0] ![0, 0] S512x2048
  pads_S2048_S2048_000 : S2048.Pads (![0] : Fin 1 → Nat) ![0] ![0] S2048
  shapeCasts_S2048_S1x2048 : S2048.ShapeCasts S1x2048
  pads_S2048x1024_S2048x1024_000_000 : S2048x1024.Pads (![0, 0] : Fin 2 → Nat) ![0, 0] ![0, 0] S2048x1024
  pads_S1024_S1024_000 : S1024.Pads (![0] : Fin 1 → Nat) ![0] ![0] S1024
  shapeCasts_S1024_S1x1024 : S1024.ShapeCasts S1x1024
  pads_S1024x512_S1024x512_000_000 : S1024x512.Pads (![0, 0] : Fin 2 → Nat) ![0, 0] ![0, 0] S1024x512
  pads_S512_S512_000 : S512.Pads (![0] : Fin 1 → Nat) ![0] ![0] S512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x2048_S512x2048_1_0_0_1_n_n_wf : DotDims.WF S512x512 S512x2048 S512x2048 [1] [0] [0] [1] [] []
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .f32 = 32 ∨ (Rect.block (s := S2048x1024) S2048x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x512.size a
  hwx0_7 : ∀ i : grid0.Coords, EltTy.bits .f32 = 32 ∨ (Rect.block (s := S8192x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibDenseLayer.lean ====
/-
  A dense layer on a block of rows, on the extended reals.

  On one row a dense layer is  (h·W + b)_q = Σ_k h_k · W(k, q) + b_q  (`affine`), and the rectifier is the entrywise
  maximum with 0 (`relu`). A kernel body spells the layer on a block of R rows as a matrix product [R, K] × [K, N]
  accumulated into the f32 zero splat plus the bias row [1, N] laid along the R rows (`layerVec`), and the rectifier
  as the maximum with the splat of the f32 zero word (`reluVec`). At the ideal values entry (p, q) of the former is
  the affine image of row p at q (`layerVec_apply`) and an entry of the latter is the maximum with 0
  (`reluVec_apply`), for any R, K, N. `rowOf` reads a [1, N] bias row as the vector of its entries.
  Imports LibPlainMatmul.lean (the product read at an entry) and the library; nothing here mentions a program.
-/
import proofs.«136291_g2000605304788880_pallasbulk_1281_9_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.DenseLayer

open Idealize.ShloMosaic Idealize.ShloMosaic.ValueIdx

/-- An affine layer on one row: `(h·W + b)_q = Σ_k h_k · W(k, q) + b_q`. -/
def affine {K N : ℕ} (h : Fin K → EReal) (W : (⟨2, ![K, N]⟩ : Shape).Idx → EReal) (b : Fin N → EReal) : Fin N → EReal :=
  fun q => (∑ k : Fin K, h k * W (ix2 k q)) + b q

/-- The rectifier, entry by entry. -/
def relu {N : ℕ} (v : Fin N → EReal) : Fin N → EReal := fun q => max (v q) 0

/-- A bias row [1, N] as the vector of its N entries. -/
def rowOf {N : ℕ} (b : (⟨2, ![1, N]⟩ : Shape).Idx → EReal) : Fin N → EReal := fun q => b (ix2 0 q)

/-- One layer on a block of R rows as a program spells it: the product into the zero splat, plus the bias row
    [1, N] laid along the R rows. -/
def layerVec {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) : FVec Ideal (⟨2, ![R, N]⟩ : Shape) .f32 :=
  addf (matmul (PlainMatmul.plain wf) none h w (constant (⟨2, ![R, N]⟩ : Shape) .f32 0x00000000#32))
    (broadcastTo (⟨2, ![R, N]⟩ : Shape) b hb)

/-- The rectifier on a vector: the maximum with the splat of the f32 zero word. -/
def reluVec {s : Shape} (v : FVec Ideal s .f32) : FVec Ideal s .f32 :=
  maximumf v (broadcast s (Scalar.ofBits (F := Ideal) .f32 0x00000000#32))

/-- Entry (p, q) of a layer: the affine image of row p, at q. -/
theorem layerVec_apply {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) (p : Fin R) (q : Fin N) :
    layerVec wf hb h w b (ix2 p q) = affine (fun k => h (ix2 p k)) w (rowOf b) q :=
  congrArg₂ (· + ·) (PlainMatmul.matmul_zero_apply wf none h w p q)
    (broadcastTo_apply b hb (ix2 p q) (ix2 0 q) fun a => by
      match a with
      | ⟨0, _⟩ => exact (if_pos rfl).symm
      | ⟨1, _⟩ =>
        show q.val = if N = 1 then 0 else q.val
        split
        · have := q.isLt; omega
        · rfl)

/-- An entry of the rectifier: the maximum with 0. -/
theorem reluVec_apply {s : Shape} (v : FVec Ideal s .f32) (i : s.Idx) : reluVec v i = max (v i) 0 := by
  show max (v i) (FloatOps.ofBits (F := Ideal) .f32 0x00000000#32) = _
  rw [Ideal.ofBits_def, Ideal.ofBits_zero_f32]

end Cert.DenseLayer

end
-- ==== Proof.MlpRows.lean ====
/-
  A three-layer perceptron on the extended reals, one row at a time.

  A row x of 512 features goes through  x ↦ relu(x·W0 + b0) ↦ relu(·W1 + b1) ↦ ·W2 + b2  with widths
  512 → 2048 → 1024 → 512, where (h·W + b)_q = Σ_k h_k·W(k,q) + b_q and relu is the entrywise maximum with 0
  (`affine`, `relu`: LibDenseLayer).
  `rows` applies it to every row of a matrix: entry (r, c) of the result depends on row r of the matrix and on c
  only, never on how the rows are grouped into blocks.

  `netVec` is the same network as a program spells it on a block of R rows at the ideal values — each layer a matrix
  product accumulated into the zero splat, plus the bias row laid along the rows, each relu a maximum with the
  splat of the f32 zero word — and `netVec_eq_rows` says that this is `rows` of the block: every contraction is
  taken whole, so the sums are the textbook ones term for term and no law of the extended reals is needed.
  Nothing here mentions a program.
-/
import proofs.«136291_g2000605304788880_pallasbulk_1281_9_alg».proof.Proof.LibDenseLayer

noncomputable section

open scoped BigOperators

namespace Cert.Mlp

open Idealize.ShloMosaic Idealize.ShloMosaic.ValueIdx Cert.DenseLayer

/-! ## One row -/

/-- The network on one row: 512 → 2048 → 1024 → 512, a rectifier after the first two layers. -/
def net (W0 : (⟨2, ![512, 2048]⟩ : Shape).Idx → EReal) (b0 : Fin 2048 → EReal)
    (W1 : (⟨2, ![2048, 1024]⟩ : Shape).Idx → EReal) (b1 : Fin 1024 → EReal)
    (W2 : (⟨2, ![1024, 512]⟩ : Shape).Idx → EReal) (b2 : Fin 512 → EReal) (x : Fin 512 → EReal) : Fin 512 → EReal :=
  affine (relu (affine (relu (affine x W0 b0)) W1 b1)) W2 b2

/-- The network applied to every row of an [M, 512] matrix. -/
def rows {M : ℕ} (W0 : (⟨2, ![512, 2048]⟩ : Shape).Idx → EReal) (b0 : Fin 2048 → EReal)
    (W1 : (⟨2, ![2048, 1024]⟩ : Shape).Idx → EReal) (b1 : Fin 1024 → EReal)
    (W2 : (⟨2, ![1024, 512]⟩ : Shape).Idx → EReal) (b2 : Fin 512 → EReal)
    (X : (⟨2, ![M, 512]⟩ : Shape).Idx → EReal) : (⟨2, ![M, 512]⟩ : Shape).Idx → EReal :=
  fun i => net W0 b0 W1 b1 W2 b2 (fun k => X (ix2 (i 0) k)) (i 1)

/-- THE SPECIFICATION: the network applied to every row of x : [8192, 512], the biases given as plain vectors. -/
def mlp (X : (⟨2, ![8192, 512]⟩ : Shape).Idx → EReal)
    (W0 : (⟨2, ![512, 2048]⟩ : Shape).Idx → EReal) (B0 : (⟨1, ![2048]⟩ : Shape).Idx → EReal)
    (W1 : (⟨2, ![2048, 1024]⟩ : Shape).Idx → EReal) (B1 : (⟨1, ![1024]⟩ : Shape).Idx → EReal)
    (W2 : (⟨2, ![1024, 512]⟩ : Shape).Idx → EReal) (B2 : (⟨1, ![512]⟩ : Shape).Idx → EReal) :
    (⟨2, ![8192, 512]⟩ : Shape).Idx → EReal :=
  rows W0 (fun q => B0 (ix1 q)) W1 (fun q => B1 (ix1 q)) W2 (fun q => B2 (ix1 q)) X

/-- An entry of `rows` is decided by the weights, the matrix's row through the entry, and the entry's column: two
    matrices (of any heights) with equal weights, equal rows there and the same column have equal entries. -/
theorem rows_congr {M M' : ℕ}
    {W0 W0' : (⟨2, ![512, 2048]⟩ : Shape).Idx → EReal} {b0 b0' : Fin 2048 → EReal}
    {W1 W1' : (⟨2, ![2048, 1024]⟩ : Shape).Idx → EReal} {b1 b1' : Fin 1024 → EReal}
    {W2 W2' : (⟨2, ![1024, 512]⟩ : Shape).Idx → EReal} {b2 b2' : Fin 512 → EReal}
    (X : (⟨2, ![M, 512]⟩ : Shape).Idx → EReal) (X' : (⟨2, ![M', 512]⟩ : Shape).Idx → EReal)
    (i : (⟨2, ![M, 512]⟩ : Shape).Idx) (i' : (⟨2, ![M', 512]⟩ : Shape).Idx)
    (hW0 : W0 = W0') (hb0 : b0 = b0') (hW1 : W1 = W1') (hb1 : b1 = b1') (hW2 : W2 = W2') (hb2 : b2 = b2')
    (hrow : ∀ k : Fin 512, X (ix2 (i 0) k) = X' (ix2 (i' 0) k)) (hcol : i 1 = i' 1) :
    rows W0 b0 W1 b1 W2 b2 X i = rows W0' b0' W1' b1' W2' b2' X' i' := by
  subst hW0 hb0 hW1 hb1 hW2 hb2
  unfold rows
  rw [hcol, funext hrow]

/-! ## The same network as vector operations on a block of rows -/

/-- The three layers on a block of R rows. -/
def netVec {R : ℕ}
    (wf0 : DotDims.WF (⟨2, ![R, 512]⟩ : Shape) (⟨2, ![512, 2048]⟩ : Shape) (⟨2, ![R, 2048]⟩ : Shape) [1] [0] [0] [1] [] [])
    (wf1 : DotDims.WF (⟨2, ![R, 2048]⟩ : Shape) (⟨2, ![2048, 1024]⟩ : Shape) (⟨2, ![R, 1024]⟩ : Shape) [1] [0] [0] [1] [] [])
    (wf2 : DotDims.WF (⟨2, ![R, 1024]⟩ : Shape) (⟨2, ![1024, 512]⟩ : Shape) (⟨2, ![R, 512]⟩ : Shape) [1] [0] [0] [1] [] [])
    (hb0 : (⟨2, ![1, 2048]⟩ : Shape).Broadcasts ⟨2, ![R, 2048]⟩)
    (hb1 : (⟨2, ![1, 1024]⟩ : Shape).Broadcasts ⟨2, ![R, 1024]⟩)
    (hb2 : (⟨2, ![1, 512]⟩ : Shape).Broadcasts ⟨2, ![R, 512]⟩)
    (x : FVec Ideal (⟨2, ![R, 512]⟩ : Shape) .f32)
    (w0 : FVec Ideal (⟨2, ![512, 2048]⟩ : Shape) .f32) (b0 : FVec Ideal (⟨2, ![1, 2048]⟩ : Shape) .f32)
    (w1 : FVec Ideal (⟨2, ![2048, 1024]⟩ : Shape) .f32) (b1 : FVec Ideal (⟨2, ![1, 1024]⟩ : Shape) .f32)
    (w2 : FVec Ideal (⟨2, ![1024, 512]⟩ : Shape) .f32) (b2 : FVec Ideal (⟨2, ![1, 512]⟩ : Shape) .f32) :
    FVec Ideal (⟨2, ![R, 512]⟩ : Shape) .f32 :=
  layerVec wf2 hb2 (reluVec (layerVec wf1 hb1 (reluVec (layerVec wf0 hb0 x w0 b0)) w1 b1)) w2 b2

/-- The vector form on a block IS the network on each of the block's rows. -/
theorem netVec_eq_rows {R : ℕ}
    (wf0 : DotDims.WF (⟨2, ![R, 512]⟩ : Shape) (⟨2, ![512, 2048]⟩ : Shape) (⟨2, ![R, 2048]⟩ : Shape) [1] [0] [0] [1] [] [])
    (wf1 : DotDims.WF (⟨2, ![R, 2048]⟩ : Shape) (⟨2, ![2048, 1024]⟩ : Shape) (⟨2, ![R, 1024]⟩ : Shape) [1] [0] [0] [1] [] [])
    (wf2 : DotDims.WF (⟨2, ![R, 1024]⟩ : Shape) (⟨2, ![1024, 512]⟩ : Shape) (⟨2, ![R, 512]⟩ : Shape) [1] [0] [0] [1] [] [])
    (hb0 : (⟨2, ![1, 2048]⟩ : Shape).Broadcasts ⟨2, ![R, 2048]⟩)
    (hb1 : (⟨2, ![1, 1024]⟩ : Shape).Broadcasts ⟨2, ![R, 1024]⟩)
    (hb2 : (⟨2, ![1, 512]⟩ : Shape).Broadcasts ⟨2, ![R, 512]⟩)
    (x : FVec Ideal (⟨2, ![R, 512]⟩ : Shape) .f32)
    (w0 : FVec Ideal (⟨2, ![512, 2048]⟩ : Shape) .f32) (b0 : FVec Ideal (⟨2, ![1, 2048]⟩ : Shape) .f32)
    (w1 : FVec Ideal (⟨2, ![2048, 1024]⟩ : Shape) .f32) (b1 : FVec Ideal (⟨2, ![1, 1024]⟩ : Shape) .f32)
    (w2 : FVec Ideal (⟨2, ![1024, 512]⟩ : Shape) .f32) (b2 : FVec Ideal (⟨2, ![1, 512]⟩ : Shape) .f32) :
    netVec wf0 wf1 wf2 hb0 hb1 hb2 x w0 b0 w1 b1 w2 b2 = rows w0 (rowOf b0) w1 (rowOf b1) w2 (rowOf b2) x := by
  funext j
  obtain ⟨p, q, rfl⟩ : ∃ (p : Fin R) (q : Fin 512), j = ix2 p q := ⟨j 0, j 1, eq_ix2 j⟩
  have e1 : (fun k => reluVec (layerVec wf0 hb0 x w0 b0) (ix2 p k))
      = relu (affine (fun k => x (ix2 p k)) w0 (rowOf b0)) :=
    funext fun k => by rw [reluVec_apply, layerVec_apply]; rfl
  have e2 : (fun k => reluVec (layerVec wf1 hb1 (reluVec (layerVec wf0 hb0 x w0 b0)) w1 b1) (ix2 p k))
      = relu (affine (relu (affine (fun k => x (ix2 p k)) w0 (rowOf b0))) w1 (rowOf b1)) :=
    funext fun k => by rw [reluVec_apply, layerVec_apply, e1]; rfl
  unfold netVec
  rw [layerVec_apply, e2]
  rfl

end Cert.Mlp

end
-- ==== Proof.KernelBlock.lean ====
/-
  What one grid point of the kernel leaves in its output block.

  The body takes its block of 4096 rows in four stretches of 1024 rows. On each stretch it runs the three layers —
  product into zeros, bias row, maximum with zero, twice, then product and bias — and stores the result over the same
  1024 rows of the output block. Each stretch's result is therefore the network on each of its rows, and since an
  entry of the network's result depends only on its own row, the four stores together leave the network applied to
  every row of the input block.
-/
import proofs.«136291_g2000605304788880_pallasbulk_1281_9_alg».proof.Proof.Gen.KernelIdeal.Frame
import proofs.«136291_g2000605304788880_pallasbulk_1281_9_alg».proof.Proof.MlpRows

noncomputable section

namespace Cert.KernelIdeal.RowsValue

open Cert.KernelIdeal Cert.KernelIdeal.Gen Cert.Mlp Cert.DenseLayer
open Idealize.ShloMosaic Idealize.ShloMosaic.ValueIdx

/-! ## A stretch's arithmetic is the three layers

The four stretches are cut at different places into named parts; each, put back together, is the same three layers
of its seven operands (the casts to the same shape are the identity). -/

theorem stretch0 (v0 : Vec Ideal S1024x512 .f32) (v2 : Vec Ideal S512x2048 .f32) (v5 : Vec Ideal S1x2048 .f32)
    (v11 : Vec Ideal S2048x1024 .f32) (v14 : Vec Ideal S1x1024 .f32) (v20 : Vec Ideal S1024x512 .f32) (v23 : Vec Ideal S1x512 .f32) :
    k0_pay2 v0 v2 v5 v11 v14 v20 v23
      = netVec Facts₀.dot_S1024x512_S512x2048_S1024x2048_1_0_0_1_n_n_wf Facts₀.dot_S1024x2048_S2048x1024_S1024x1024_1_0_0_1_n_n_wf
          Facts₀.dot_S1024x1024_S1024x512_S1024x512_1_0_0_1_n_n_wf Facts₀.broadcasts_S1x2048_S1024x2048
          Facts₀.broadcasts_S1x1024_S1024x1024 Facts₀.broadcasts_S1x512_S1024x512 v0 v2 v5 v11 v14 v20 v23 := by
  unfold k0_pay2 netVec layerVec reluVec
  simp only [shapeCast_self]
  rfl

theorem stretch1 (v28 : Vec Ideal S1024x512 .f32) (v30 : Vec Ideal S512x2048 .f32) (v33 : Vec Ideal S1x2048 .f32)
    (v39 : Vec Ideal S2048x1024 .f32) (v42 : Vec Ideal S1x1024 .f32) (v48 : Vec Ideal S1024x512 .f32) (v51 : Vec Ideal S1x512 .f32) :
    k0_pay5 (k0_pay3 v28) (k0_pay4 v30) (constant S1024x2048 .f32 0x00000000#32) v33 v39 v42 v48 v51
      = netVec Facts₀.dot_S1024x512_S512x2048_S1024x2048_1_0_0_1_n_n_wf Facts₀.dot_S1024x2048_S2048x1024_S1024x1024_1_0_0_1_n_n_wf
          Facts₀.dot_S1024x1024_S1024x512_S1024x512_1_0_0_1_n_n_wf Facts₀.broadcasts_S1x2048_S1024x2048
          Facts₀.broadcasts_S1x1024_S1024x1024 Facts₀.broadcasts_S1x512_S1024x512 v28 v30 v33 v39 v42 v48 v51 := by
  unfold k0_pay5 k0_pay3 k0_pay4 netVec layerVec reluVec
  simp only [shapeCast_self]
  rfl

theorem stretch2 (v56 : Vec Ideal S1024x512 .f32) (v58 : Vec Ideal S512x2048 .f32) (v61 : Vec Ideal S1x2048 .f32)
    (v67 : Vec Ideal S2048x1024 .f32) (v70 : Vec Ideal S1x1024 .f32) (v76 : Vec Ideal S1024x512 .f32) (v79 : Vec Ideal S1x512 .f32) :
    k0_pay7 (k0_pay6 v56 v58 v61) v67 v70 v76 v79
      = netVec Facts₀.dot_S1024x512_S512x2048_S1024x2048_1_0_0_1_n_n_wf Facts₀.dot_S1024x2048_S2048x1024_S1024x1024_1_0_0_1_n_n_wf
          Facts₀.dot_S1024x1024_S1024x512_S1024x512_1_0_0_1_n_n_wf Facts₀.broadcasts_S1x2048_S1024x2048
          Facts₀.broadcasts_S1x1024_S1024x1024 Facts₀.broadcasts_S1x512_S1024x512 v56 v58 v61 v67 v70 v76 v79 := by
  unfold k0_pay7 k0_pay6 netVec layerVec reluVec
  simp only [shapeCast_self]
  rfl

theorem stretch3 (v84 : Vec Ideal S1024x512 .f32) (v86 : Vec Ideal S512x2048 .f32) (v89 : Vec Ideal S1x2048 .f32)
    (v95 : Vec Ideal S2048x1024 .f32) (v98 : Vec Ideal S1x1024 .f32) (v104 : Vec Ideal S1024x512 .f32) (v107 : Vec Ideal S1x512 .f32) :
    k0_pay1 (k0_pay8 v84 v86 v89 v95) (k0_pay9 v98) v104 v107
      = netVec Facts₀.dot_S1024x512_S512x2048_S1024x2048_1_0_0_1_n_n_wf Facts₀.dot_S1024x2048_S2048x1024_S1024x1024_1_0_0_1_n_n_wf
          Facts₀.dot_S1024x1024_S1024x512_S1024x512_1_0_0_1_n_n_wf Facts₀.broadcasts_S1x2048_S1024x2048
          Facts₀.broadcasts_S1x1024_S1024x1024 Facts₀.broadcasts_S1x512_S1024x512 v84 v86 v89 v95 v98 v104 v107 := by
  unfold k0_pay1 k0_pay8 k0_pay9 netVec layerVec reluVec
  simp only [shapeCast_self]
  rfl

/-! ## The four stores together -/

theorem zeros2 : (![0, 0] : Fin 2 → Nat) = fun _ => 0 := funext fun a => by fin_cases a <;> rfl

/-- The network on the rows of a stretch of 1024 rows starting at row `off` of the block is the network on the
    block's rows, read at the stretch's place. -/
theorem rows_of_stretch (off : ℕ) (inb : ∀ a, (![off, 0] : Fin 2 → Nat) a + S1024x512.size a ≤ S4096x512.size a)
    (W0 : S512x2048.Idx → EReal) (b0 : Fin 2048 → EReal) (W1 : S2048x1024.Idx → EReal) (b1 : Fin 1024 → EReal)
    (W2 : S1024x512.Idx → EReal) (b2 : Fin 512 → EReal) (X : Vec Ideal S4096x512 .f32) (x : S1024x512.Idx) :
    rows W0 b0 W1 b1 W2 b2 (View.ld X (Rect.unit (s := S4096x512) ![off, 0] S1024x512.size inb)) x
      = rows W0 b0 W1 b1 W2 b2 X ((Rect.unit (s := S4096x512) ![off, 0] S1024x512.size inb).emb x) :=
  rows_congr _ _ _ _ rfl rfl rfl rfl rfl rfl
    (fun k => congrArg X (funext fun a => Fin.ext (by
      match a with
      | ⟨0, _⟩ => rfl
      | ⟨1, _⟩ => show 0 + 1 * k.val = k.val; omega)))
    (Fin.ext (by show (x 1).val = 0 + 1 * (x 1).val; omega))

/-- THE BLOCK THE BODY LEAVES: the network on every row of the input block, with the weights the weight blocks and
    the biases the rows of the bias blocks. -/
theorem block_eq (x0 : Vec Ideal S4096x512 .f32) (x1 : Vec Ideal S512x2048 .f32) (x2 : Vec Ideal S1x2048 .f32)
    (x3 : Vec Ideal S2048x1024 .f32) (x4 : Vec Ideal S1x1024 .f32) (x5 : Vec Ideal S1024x512 .f32) (x6 : Vec Ideal S1x512 .f32) :
    out0_7 x0 x1 x2 x3 x4 x5 x6 = rows x1 (rowOf x2) x3 (rowOf x4) x5 (rowOf x6) x0 := by
  funext y
  unfold out0_7
  simp only [View.ld_unit_zero (S := S512x2048) zeros2, View.ld_unit_zero (S := S1x2048) zeros2,
    View.ld_unit_zero (S := S2048x1024) zeros2, View.ld_unit_zero (S := S1x1024) zeros2,
    View.ld_unit_zero (S := S1024x512) zeros2, View.ld_unit_zero (S := S1x512) zeros2]
  rw [stretch0, stretch1, stretch2, stretch3]
  simp only [netVec_eq_rows]
  refine View.canon_apply_of_pieces (Val := Elt Ideal) (S := S4096x512) (e := .f32)
    (rows x1 (rowOf x2) x3 (rowOf x4) x5 (rowOf x6) x0) _ ?_ y (cover0_7 _ _ _ _ y)
  intro p hp x
  simp only [List.mem_cons, List.not_mem_nil, or_false] at hp
  rcases hp with rfl | rfl | rfl | rfl
  · exact rows_of_stretch 3072 _ _ _ _ _ _ _ x0 x
  · exact rows_of_stretch 2048 _ _ _ _ _ _ _ x0 x
  · exact rows_of_stretch 1024 _ _ _ _ _ _ _ x0 x
  · exact rows_of_stretch 0 _ _ _ _ _ _ _ x0 x

end Cert.KernelIdeal.RowsValue

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.LibPadNothing.lean ====
/-
  A host `pad` that adds nothing.

  A `pad` with no low padding and no interior padding whose result has the operand's own shape (so no high padding
  either) returns its operand: every index of the result lies inside the operand, at itself. A program's wrapper that
  pads its operands up to a tile multiple prints such a `pad` whenever the sizes already are multiples.
  Imports the library only; nothing here mentions a program.
-/
import Idealize.ShloMosaic.Lib.KernelVsHost

noncomputable section

namespace Cert.PadNothing

open Idealize.ShloMosaic

/-- A `pad` that adds nothing in front and nothing between the entries, to the operand's own shape, is the operand
    (whatever padding value it names). -/
theorem pad_nothing {s : Shape} {α : Type} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x :=
  funext fun j => pad_apply_of_inside lo hi interior x v h hu j j fun a => by
    rw [hlo a, hint a, Nat.zero_add, Nat.zero_add, Nat.mul_one]
    rfl

end Cert.PadNothing

end
-- ==== Proof.HostPrep.lean ====
/-
  What a host program's preparation of a kernel's operands does to their values: nothing.

  A `pad` with no low, no high and no interior padding returns its operand (`pad_nothing`: LibPadNothing), and a bias
  vector [n] handed over as the one-row matrix [1, n] has, as its row, the vector's entries.
  Nothing here mentions a program.
-/
import proofs.«136291_g2000605304788880_pallasbulk_1281_9_alg».proof.Proof.LibRowVector
import proofs.«136291_g2000605304788880_pallasbulk_1281_9_alg».proof.Proof.LibPadNothing
import proofs.«136291_g2000605304788880_pallasbulk_1281_9_alg».proof.Proof.MlpRows

noncomputable section

namespace Cert.Mlp

open Idealize.ShloMosaic Idealize.ShloMosaic.ValueIdx Cert.DenseLayer Cert.PadNothing

/-- The row of a vector reshaped to a one-row matrix is the vector. -/
theorem rowOf_shapeCast {n : ℕ} (v : (⟨1, ![n]⟩ : Shape).Idx → EReal)
    (h : (⟨1, ![n]⟩ : Shape).ShapeCasts ⟨2, ![1, n]⟩) :
    rowOf (shapeCast ⟨2, ![1, n]⟩ v h) = fun q => v (ix1 q) :=
  funext fun q => RowVector.shapeCast_b_1b_apply v h 0 q

/-- Both together: a bias vector padded by nothing and then reshaped to one row has, as its row, the vector. -/
theorem rowOf_shapeCast_pad {n : ℕ} (lo hi interior : Fin 1 → Nat) (x : (⟨1, ![n]⟩ : Shape).Idx → EReal) {u : Shape}
    (v : u.Idx → EReal) (h : (⟨1, ![n]⟩ : Shape).Pads lo hi interior ⟨1, ![n]⟩) (hu : 0 < u.numel)
    (hlo : ∀ a, lo a = 0) (hint : ∀ a, interior a = 0) (hc : (⟨1, ![n]⟩ : Shape).ShapeCasts ⟨2, ![1, n]⟩) :
    rowOf (shapeCast ⟨2, ![1, n]⟩ (pad ⟨1, ![n]⟩ lo hi interior x v h hu) hc) = fun q => x (ix1 q) := by
  rw [pad_nothing lo hi interior x v h hu hlo hint]
  exact rowOf_shapeCast x hc

end Cert.Mlp

end
-- ==== Proof.KernelEntry.lean ====
/-
  The arrays the kernel's call finds when it is launched, as functions of the program's arguments.

  Before the call the host pads each argument by nothing on every side and hands each bias vector over as a one-row
  matrix. So the call's first operand is x, its weight operands are W0, W1, W2, and the rows of its three bias
  operands are b0, b1, b2.
-/
import proofs.«136291_g2000605304788880_pallasbulk_1281_9_alg».proof.Proof.Gen.KernelIdeal.Frame
import proofs.«136291_g2000605304788880_pallasbulk_1281_9_alg».proof.Proof.HostPrep
import Idealize.ShloMosaic.Lib.StableHlo.Run

noncomputable section

namespace Cert.KernelIdeal.RowsValue

open Cert.KernelIdeal Cert.KernelIdeal.Gen Cert.Mlp Cert.DenseLayer Cert.PadNothing
open Idealize.ShloMosaic Idealize.ShloMosaic.ValueIdx Idealize.ShloMosaic.TcCoe Idealize.SL.Sem

variable (m : (ℓ : Loc nD τ sig) → Buf (Elt Ideal) ℓ)

/-- The activations: the zero-width `pad` in front of the call changes nothing. -/
theorem entry_x (c : Dev nD) : (V m c main_v0 : S8192x512.Idx → EReal) = m ((c : Thread nD τ).loc main_arg0) := by
  have e : (V m c main_v0 : S8192x512.Idx → EReal)
      = pad S8192x512 ![0, 0] ![0, 0] ![0, 0] (m ((c : Thread nD τ).loc main_arg0) : S8192x512.Idx → EReal)
          (sitofp (F := Ideal) .f32 (constantI S_ 32 0#32) : S_.Idx → EReal)
          Facts₀.pads_S8192x512_S8192x512_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The first layer's weights: the zero-width `pad` in front of the call changes nothing. -/
theorem entry_w0 (c : Dev nD) : (V m c main_v1 : S512x2048.Idx → EReal) = m ((c : Thread nD τ).loc main_arg1) := by
  have e : (V m c main_v1 : S512x2048.Idx → EReal)
      = pad S512x2048 ![0, 0] ![0, 0] ![0, 0] (m ((c : Thread nD τ).loc main_arg1) : S512x2048.Idx → EReal)
          (sitofp (F := Ideal) .f32 (constantI S_ 32 0#32) : S_.Idx → EReal)
          Facts₀.pads_S512x2048_S512x2048_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The first layer's bias: padded by nothing and reshaped to one row, its row is the vector. -/
theorem entry_b0 (c : Dev nD) :
    rowOf (V m c main_v3 : S1x2048.Idx → EReal) = fun q => m ((c : Thread nD τ).loc main_arg2) (ix1 q) := by
  have e : (V m c main_v3 : S1x2048.Idx → EReal)
      = shapeCast S1x2048 (pad S2048 ![0] ![0] ![0] (m ((c : Thread nD τ).loc main_arg2) : S2048.Idx → EReal)
          (sitofp (F := Ideal) .f32 (constantI S_ 32 0#32) : S_.Idx → EReal)
          Facts₀.pads_S2048_S2048_000 Facts₀.h_S_) Facts₀.shapeCasts_S2048_S1x2048 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact rowOf_shapeCast_pad _ _ _ _ _ _ _ (fun a => by fin_cases a <;> rfl) (fun a => by fin_cases a <;> rfl) _

/-- The second layer's weights: the zero-width `pad` in front of the call changes nothing. -/
theorem entry_w1 (c : Dev nD) : (V m c main_v4 : S2048x1024.Idx → EReal) = m ((c : Thread nD τ).loc main_arg3) := by
  have e : (V m c main_v4 : S2048x1024.Idx → EReal)
      = pad S2048x1024 ![0, 0] ![0, 0] ![0, 0] (m ((c : Thread nD τ).loc main_arg3) : S2048x1024.Idx → EReal)
          (sitofp (F := Ideal) .f32 (constantI S_ 32 0#32) : S_.Idx → EReal)
          Facts₀.pads_S2048x1024_S2048x1024_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The second layer's bias: padded by nothing and reshaped to one row, its row is the vector. -/
theorem entry_b1 (c : Dev nD) :
    rowOf (V m c main_v6 : S1x1024.Idx → EReal) = fun q => m ((c : Thread nD τ).loc main_arg4) (ix1 q) := by
  have e : (V m c main_v6 : S1x1024.Idx → EReal)
      = shapeCast S1x1024 (pad S1024 ![0] ![0] ![0] (m ((c : Thread nD τ).loc main_arg4) : S1024.Idx → EReal)
          (sitofp (F := Ideal) .f32 (constantI S_ 32 0#32) : S_.Idx → EReal)
          Facts₀.pads_S1024_S1024_000 Facts₀.h_S_) Facts₀.shapeCasts_S1024_S1x1024 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact rowOf_shapeCast_pad _ _ _ _ _ _ _ (fun a => by fin_cases a <;> rfl) (fun a => by fin_cases a <;> rfl) _

/-- The third layer's weights: the zero-width `pad` in front of the call changes nothing. -/
theorem entry_w2 (c : Dev nD) : (V m c main_v7 : S1024x512.Idx → EReal) = m ((c : Thread nD τ).loc main_arg5) := by
  have e : (V m c main_v7 : S1024x512.Idx → EReal)
      = pad S1024x512 ![0, 0] ![0, 0] ![0, 0] (m ((c : Thread nD τ).loc main_arg5) : S1024x512.Idx → EReal)
          (sitofp (F := Ideal) .f32 (constantI S_ 32 0#32) : S_.Idx → EReal)
          Facts₀.pads_S1024x512_S1024x512_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The third layer's bias: padded by nothing and reshaped to one row, its row is the vector. -/
theorem entry_b2 (c : Dev nD) :
    rowOf (V m c main_v9 : S1x512.Idx → EReal) = fun q => m ((c : Thread nD τ).loc main_arg6) (ix1 q) := by
  have e : (V m c main_v9 : S1x512.Idx → EReal)
      = shapeCast S1x512 (pad S512 ![0] ![0] ![0] (m ((c : Thread nD τ).loc main_arg6) : S512.Idx → EReal)
          (sitofp (F := Ideal) .f32 (constantI S_ 32 0#32) : S_.Idx → EReal)
          Facts₀.pads_S512_S512_000 Facts₀.h_S_) Facts₀.shapeCasts_S512_S1x512 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact rowOf_shapeCast_pad _ _ _ _ _ _ _ (fun a => by fin_cases a <;> rfl) (fun a => by fin_cases a <;> rfl) _

end Cert.KernelIdeal.RowsValue

end
-- ==== Proof.KernelArray.lean ====
/-
  The kernel's result array after the run: the network applied to every row of x.

  The grid has 2 points; point t works on rows 4096·t … 4096·t + 4095 of x and writes the same rows of the result; the
  weights and biases are the same whole arrays at every point. What a point writes back is the network on the rows
  of its block of x, which is the block of `mlp x …` at the same rows, because an entry of the network's result
  depends only on its own row. The 2 blocks cover the 8192 rows, so the array ends holding `mlp x …`.
-/
import proofs.«136291_g2000605304788880_pallasbulk_1281_9_alg».proof.Proof.Gen.KernelIdeal.Value
import proofs.«136291_g2000605304788880_pallasbulk_1281_9_alg».proof.Proof.KernelBlock
import proofs.«136291_g2000605304788880_pallasbulk_1281_9_alg».proof.Proof.KernelEntry

noncomputable section

namespace Cert.KernelIdeal.RowsValue

open Cert.KernelIdeal Cert.KernelIdeal.Gen Cert.Mlp Cert.DenseLayer Cert.PadNothing
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The index maps, decided over the grid -/

/-- Point t's block of x and of the result is block t along the rows (and the one block along the columns); every
    other operand's block is block (0, 0). -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-- Every block of rows is some point's. -/
theorem index_onto : ∀ q : Fin 2, ∃ t : Fin cfg0.N, win0_7.index t = ![q.val, 0] :=
  (by decide +kernel : ∀ q : Fin 2, ∃ t : Fin grid0.N, win0_7.index t = ![q.val, 0])

/-! ## The operands' blocks at a point -/

/-- The first layer's weight matrix is one block for the whole grid: every point's block of it is the array itself. -/
theorem blk_w0 (c : Dev nD) (t : Fin cfg0.N) : (iblk m c 1 t : S512x2048.Idx → EReal) = V m c main_v1 := by
  obtain ⟨-, -, -, -, h1, h2, h3, h4, h5, h6⟩ := index_facts t
  funext y
  show V m c main_v1 (((cfg0.win 1).blk t).view.emb y) = V m c main_v1 y
  refine congrArg _ (funext fun a => Fin.ext ?_)
  match a with
  | ⟨0, _⟩ => show win0_1.index t (0 : Fin 2) * 512 + 1 * (y 0).val = (y 0).val; have := h1 0; omega
  | ⟨1, _⟩ => show win0_1.index t (1 : Fin 2) * 2048 + 1 * (y 1).val = (y 1).val; have := h1 1; omega

/-- The first layer's bias row is one block for the whole grid: every point's block of it is the array itself. -/
theorem blk_b0 (c : Dev nD) (t : Fin cfg0.N) : (iblk m c 2 t : S1x2048.Idx → EReal) = V m c main_v3 := by
  obtain ⟨-, -, -, -, h1, h2, h3, h4, h5, h6⟩ := index_facts t
  funext y
  show V m c main_v3 (((cfg0.win 2).blk t).view.emb y) = V m c main_v3 y
  refine congrArg _ (funext fun a => Fin.ext ?_)
  match a with
  | ⟨0, _⟩ => show win0_2.index t (0 : Fin 2) * 1 + 1 * (y 0).val = (y 0).val; have := h2 0; omega
  | ⟨1, _⟩ => show win0_2.index t (1 : Fin 2) * 2048 + 1 * (y 1).val = (y 1).val; have := h2 1; omega

/-- The second layer's weight matrix is one block for the whole grid: every point's block of it is the array itself. -/
theorem blk_w1 (c : Dev nD) (t : Fin cfg0.N) : (iblk m c 3 t : S2048x1024.Idx → EReal) = V m c main_v4 := by
  obtain ⟨-, -, -, -, h1, h2, h3, h4, h5, h6⟩ := index_facts t
  funext y
  show V m c main_v4 (((cfg0.win 3).blk t).view.emb y) = V m c main_v4 y
  refine congrArg _ (funext fun a => Fin.ext ?_)
  match a with
  | ⟨0, _⟩ => show win0_3.index t (0 : Fin 2) * 2048 + 1 * (y 0).val = (y 0).val; have := h3 0; omega
  | ⟨1, _⟩ => show win0_3.index t (1 : Fin 2) * 1024 + 1 * (y 1).val = (y 1).val; have := h3 1; omega

/-- The second layer's bias row is one block for the whole grid: every point's block of it is the array itself. -/
theorem blk_b1 (c : Dev nD) (t : Fin cfg0.N) : (iblk m c 4 t : S1x1024.Idx → EReal) = V m c main_v6 := by
  obtain ⟨-, -, -, -, h1, h2, h3, h4, h5, h6⟩ := index_facts t
  funext y
  show V m c main_v6 (((cfg0.win 4).blk t).view.emb y) = V m c main_v6 y
  refine congrArg _ (funext fun a => Fin.ext ?_)
  match a with
  | ⟨0, _⟩ => show win0_4.index t (0 : Fin 2) * 1 + 1 * (y 0).val = (y 0).val; have := h4 0; omega
  | ⟨1, _⟩ => show win0_4.index t (1 : Fin 2) * 1024 + 1 * (y 1).val = (y 1).val; have := h4 1; omega

/-- The third layer's weight matrix is one block for the whole grid: every point's block of it is the array itself. -/
theorem blk_w2 (c : Dev nD) (t : Fin cfg0.N) : (iblk m c 5 t : S1024x512.Idx → EReal) = V m c main_v7 := by
  obtain ⟨-, -, -, -, h1, h2, h3, h4, h5, h6⟩ := index_facts t
  funext y
  show V m c main_v7 (((cfg0.win 5).blk t).view.emb y) = V m c main_v7 y
  refine congrArg _ (funext fun a => Fin.ext ?_)
  match a with
  | ⟨0, _⟩ => show win0_5.index t (0 : Fin 2) * 1024 + 1 * (y 0).val = (y 0).val; have := h5 0; omega
  | ⟨1, _⟩ => show win0_5.index t (1 : Fin 2) * 512 + 1 * (y 1).val = (y 1).val; have := h5 1; omega

/-- The third layer's bias row is one block for the whole grid: every point's block of it is the array itself. -/
theorem blk_b2 (c : Dev nD) (t : Fin cfg0.N) : (iblk m c 6 t : S1x512.Idx → EReal) = V m c main_v9 := by
  obtain ⟨-, -, -, -, h1, h2, h3, h4, h5, h6⟩ := index_facts t
  funext y
  show V m c main_v9 (((cfg0.win 6).blk t).view.emb y) = V m c main_v9 y
  refine congrArg _ (funext fun a => Fin.ext ?_)
  match a with
  | ⟨0, _⟩ => show win0_6.index t (0 : Fin 2) * 1 + 1 * (y 0).val = (y 0).val; have := h6 0; omega
  | ⟨1, _⟩ => show win0_6.index t (1 : Fin 2) * 512 + 1 * (y 1).val = (y 1).val; have := h6 1; omega

/-! ## What a point writes back -/

/-- WHAT POINT t WRITES BACK is block t of the network applied to every row of x. -/
theorem flushed_eq (c : Dev nD) (t : Fin cfg0.N) :
    (dats m 0 c).flushed 7 t = ((cfg0.win 7).blk t).view.read (Elt Ideal) (mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) := by
  rw [Value.flushed7,
    block_eq (iblk m c 0 t) (iblk m c 1 t) (iblk m c 2 t) (iblk m c 3 t) (iblk m c 4 t) (iblk m c 5 t) (iblk m c 6 t)]
  obtain ⟨e0, e1, e2, e3, -⟩ := index_facts t
  funext j
  show rows (iblk m c 1 t) (rowOf (iblk m c 2 t)) (iblk m c 3 t) (rowOf (iblk m c 4 t)) (iblk m c 5 t) (rowOf (iblk m c 6 t))
      (iblk m c 0 t) j
    = mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (((cfg0.win 7).blk t).view.emb j)
  unfold mlp
  refine rows_congr _ _ _ _ ?_ ?_ ?_ ?_ ?_ ?_ ?_ ?_
  · exact (blk_w0 m c t).trans (entry_w0 m c)
  · exact (congrArg rowOf (blk_b0 m c t)).trans (entry_b0 m c)
  · exact (blk_w1 m c t).trans (entry_w1 m c)
  · exact (congrArg rowOf (blk_b1 m c t)).trans (entry_b1 m c)
  · exact (blk_w2 m c t).trans (entry_w2 m c)
  · exact (congrArg rowOf (blk_b2 m c t)).trans (entry_b2 m c)
  · intro k
    rw [← entry_x m c]
    show V m c main_v0 (((cfg0.win 0).blk t).view.emb (ix2 (j 0) k))
      = V m c main_v0 (ix2 ((((cfg0.win 7).blk t).view.emb j) 0) k)
    refine congrArg _ (funext fun a => Fin.ext ?_)
    match a with
    | ⟨0, _⟩ =>
      show win0_0.index t (0 : Fin 2) * 4096 + 1 * (j 0).val = win0_7.index t (0 : Fin 2) * 4096 + 1 * (j 0).val
      omega
    | ⟨1, _⟩ => show win0_0.index t (1 : Fin 2) * 512 + 1 * k.val = k.val; omega
  · refine Fin.ext ?_
    show (j 1).val = win0_7.index t (1 : Fin 2) * 512 + 1 * (j 1).val
    omega

/-! ## The blocks cover the array -/

/-- An index of the result is in point t's block iff each coordinate is in the block's range on its axis. -/
theorem mem_blk (t : Fin cfg0.N) (i : S8192x512.Idx) :
    i ∈ ((cfg0.win 7).blk t).view.set ↔ ∀ a : Fin 2, win0_7.index t a * S4096x512.size a ≤ (i a).val
      ∧ (i a).val < win0_7.index t a * S4096x512.size a + S4096x512.size a := by
  show i ∈ ((View.whole main_v10).slice (win0_7.rect t)).set ↔ _
  rw [View.set_slice_whole, Rect.mem_set_unit]
  exact Iff.rfl

/-- Row r of the result is in the block of point r / 4096. -/
theorem covered (i : S8192x512.Idx) :
    ∃ t : Fin cfg0.N, (cfg0.win 7).flush t = true ∧ i ∈ ((cfg0.win 7).blk t).view.set := by
  have hi0 : (i 0).val < 8192 := (i 0).isLt
  have hi1 : (i 1).val < 512 := (i 1).isLt
  obtain ⟨t, ht⟩ := index_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 512 ≤ (i 1).val ∧ (i 1).val < win0_7.index t (1 : Fin 2) * 512 + 512
    omega

/-! ## The array, and the run -/

/-- THE RESULT ARRAY after the run is the network applied to every row of x. -/
theorem final (c : Dev nD) : (dats m 0 c).arrAt 7 cfg0.N = mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) :=
  (dats m 0 c).arrAt_eq_of_cover 7 _ (fun t _ => flushed_eq m c t) covered

/-- The run: every execution ends with the result at `mlp` of the arguments and the arguments unchanged. -/
theorem run : θ_run defs (onTc (τ := τ) (main (F := Ideal))) ⟨m, fun _ => 0, ρ⟩ fun r => ∀ c : Dev nD,
      r.2.mem ((c : Thread nD τ).loc main_v10) = mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.RowsValue

end
-- ==== Proof.ReferenceBlock.lean ====
/-
  What one grid point of the reference leaves in its output block.

  The body takes its whole block of 512 rows at once: the three layers — product into zeros, bias row, maximum with
  zero, twice, then product and bias — stored over the whole output block. So the block it leaves is the network
  applied to every row of the input block.
-/
import proofs.«136291_g2000605304788880_pallasbulk_1281_9_alg».proof.Proof.Gen.ReferenceIdeal.Frame
import proofs.«136291_g2000605304788880_pallasbulk_1281_9_alg».proof.Proof.MlpRows

noncomputable section

namespace Cert.ReferenceIdeal.RowsValue

open Cert.ReferenceIdeal Cert.ReferenceIdeal.Gen Cert.Mlp Cert.DenseLayer
open Idealize.ShloMosaic Idealize.ShloMosaic.ValueIdx

/-- The body's arithmetic is the three layers of its seven operands (the casts to the same shape are the identity). -/
theorem body_eq (v0 : Vec Ideal S512x512 .f32) (v2 : Vec Ideal S512x2048 .f32) (v4 : Vec Ideal S1x2048 .f32)
    (v11 : Vec Ideal S2048x1024 .f32) (v13 : Vec Ideal S1x1024 .f32) (v20 : Vec Ideal S1024x512 .f32) (v22 : Vec Ideal S1x512 .f32) :
    k0_pay1 v0 v2 v4 v11 v13 v20 v22
      = netVec Facts₀.dot_S512x512_S512x2048_S512x2048_1_0_0_1_n_n_wf Facts₀.dot_S512x2048_S2048x1024_S512x1024_1_0_0_1_n_n_wf
          Facts₀.dot_S512x1024_S1024x512_S512x512_1_0_0_1_n_n_wf Facts₀.broadcasts_S1x2048_S512x2048
          Facts₀.broadcasts_S1x1024_S512x1024 Facts₀.broadcasts_S1x512_S512x512 v0 v2 v4 v11 v13 v20 v22 := by
  unfold k0_pay1 netVec layerVec reluVec
  simp only [shapeCast_self]
  rfl

theorem zeros2 : (![0, 0] : Fin 2 → Nat) = fun _ => 0 := funext fun a => by fin_cases a <;> rfl

/-- THE BLOCK THE BODY LEAVES: the network on every row of the input block, with the weights the weight blocks and
    the biases the rows of the bias blocks. -/
theorem block_eq (x0 : Vec Ideal S512x512 .f32) (x1 : Vec Ideal S512x2048 .f32) (x2 : Vec Ideal S1x2048 .f32)
    (x3 : Vec Ideal S2048x1024 .f32) (x4 : Vec Ideal S1x1024 .f32) (x5 : Vec Ideal S1024x512 .f32) (x6 : Vec Ideal S1x512 .f32) :
    out0_7 x0 x1 x2 x3 x4 x5 x6 = rows x1 (rowOf x2) x3 (rowOf x4) x5 (rowOf x6) x0 := by
  unfold out0_7
  rw [View.canon_unit_zero zeros2]
  simp only [View.ld_unit_zero (S := S512x512) zeros2, View.ld_unit_zero (S := S512x2048) zeros2,
    View.ld_unit_zero (S := S1x2048) zeros2, View.ld_unit_zero (S := S2048x1024) zeros2,
    View.ld_unit_zero (S := S1x1024) zeros2, View.ld_unit_zero (S := S1024x512) zeros2,
    View.ld_unit_zero (S := S1x512) zeros2]
  rw [body_eq, netVec_eq_rows]

end Cert.ReferenceIdeal.RowsValue

end
-- ==== Proof.ReferenceEntry.lean ====
/-
  The arrays the reference's call finds when it is launched, as functions of the program's arguments.

  Before the call the host pads each argument by nothing on every side and hands each bias vector over as a one-row
  matrix. So the call's first operand is x, its weight operands are W0, W1, W2, and the rows of its three bias
  operands are b0, b1, b2.
-/
import proofs.«136291_g2000605304788880_pallasbulk_1281_9_alg».proof.Proof.Gen.ReferenceIdeal.Frame
import proofs.«136291_g2000605304788880_pallasbulk_1281_9_alg».proof.Proof.HostPrep
import Idealize.ShloMosaic.Lib.StableHlo.Run

noncomputable section

namespace Cert.ReferenceIdeal.RowsValue

open Cert.ReferenceIdeal Cert.ReferenceIdeal.Gen Cert.Mlp Cert.DenseLayer Cert.PadNothing
open Idealize.ShloMosaic Idealize.ShloMosaic.ValueIdx Idealize.ShloMosaic.TcCoe Idealize.SL.Sem

variable (m : (ℓ : Loc nD τ sig) → Buf (Elt Ideal) ℓ)

/-- The activations: the zero-width `pad` in front of the call changes nothing. -/
theorem entry_x (c : Dev nD) : (V m c main_v0 : S8192x512.Idx → EReal) = m ((c : Thread nD τ).loc main_arg0) := by
  have e : (V m c main_v0 : S8192x512.Idx → EReal)
      = pad S8192x512 ![0, 0] ![0, 0] ![0, 0] (m ((c : Thread nD τ).loc main_arg0) : S8192x512.Idx → EReal)
          (sitofp (F := Ideal) .f32 (constantI S_ 32 0#32) : S_.Idx → EReal)
          Facts₀.pads_S8192x512_S8192x512_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The first layer's weights: the zero-width `pad` in front of the call changes nothing. -/
theorem entry_w0 (c : Dev nD) : (V m c main_v1 : S512x2048.Idx → EReal) = m ((c : Thread nD τ).loc main_arg1) := by
  have e : (V m c main_v1 : S512x2048.Idx → EReal)
      = pad S512x2048 ![0, 0] ![0, 0] ![0, 0] (m ((c : Thread nD τ).loc main_arg1) : S512x2048.Idx → EReal)
          (sitofp (F := Ideal) .f32 (constantI S_ 32 0#32) : S_.Idx → EReal)
          Facts₀.pads_S512x2048_S512x2048_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The first layer's bias: padded by nothing and reshaped to one row, its row is the vector. -/
theorem entry_b0 (c : Dev nD) :
    rowOf (V m c main_v3 : S1x2048.Idx → EReal) = fun q => m ((c : Thread nD τ).loc main_arg2) (ix1 q) := by
  have e : (V m c main_v3 : S1x2048.Idx → EReal)
      = shapeCast S1x2048 (pad S2048 ![0] ![0] ![0] (m ((c : Thread nD τ).loc main_arg2) : S2048.Idx → EReal)
          (sitofp (F := Ideal) .f32 (constantI S_ 32 0#32) : S_.Idx → EReal)
          Facts₀.pads_S2048_S2048_000 Facts₀.h_S_) Facts₀.shapeCasts_S2048_S1x2048 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact rowOf_shapeCast_pad _ _ _ _ _ _ _ (fun a => by fin_cases a <;> rfl) (fun a => by fin_cases a <;> rfl) _

/-- The second layer's weights: the zero-width `pad` in front of the call changes nothing. -/
theorem entry_w1 (c : Dev nD) : (V m c main_v4 : S2048x1024.Idx → EReal) = m ((c : Thread nD τ).loc main_arg3) := by
  have e : (V m c main_v4 : S2048x1024.Idx → EReal)
      = pad S2048x1024 ![0, 0] ![0, 0] ![0, 0] (m ((c : Thread nD τ).loc main_arg3) : S2048x1024.Idx → EReal)
          (sitofp (F := Ideal) .f32 (constantI S_ 32 0#32) : S_.Idx → EReal)
          Facts₀.pads_S2048x1024_S2048x1024_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The second layer's bias: padded by nothing and reshaped to one row, its row is the vector. -/
theorem entry_b1 (c : Dev nD) :
    rowOf (V m c main_v6 : S1x1024.Idx → EReal) = fun q => m ((c : Thread nD τ).loc main_arg4) (ix1 q) := by
  have e : (V m c main_v6 : S1x1024.Idx → EReal)
      = shapeCast S1x1024 (pad S1024 ![0] ![0] ![0] (m ((c : Thread nD τ).loc main_arg4) : S1024.Idx → EReal)
          (sitofp (F := Ideal) .f32 (constantI S_ 32 0#32) : S_.Idx → EReal)
          Facts₀.pads_S1024_S1024_000 Facts₀.h_S_) Facts₀.shapeCasts_S1024_S1x1024 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact rowOf_shapeCast_pad _ _ _ _ _ _ _ (fun a => by fin_cases a <;> rfl) (fun a => by fin_cases a <;> rfl) _

/-- The third layer's weights: the zero-width `pad` in front of the call changes nothing. -/
theorem entry_w2 (c : Dev nD) : (V m c main_v7 : S1024x512.Idx → EReal) = m ((c : Thread nD τ).loc main_arg5) := by
  have e : (V m c main_v7 : S1024x512.Idx → EReal)
      = pad S1024x512 ![0, 0] ![0, 0] ![0, 0] (m ((c : Thread nD τ).loc main_arg5) : S1024x512.Idx → EReal)
          (sitofp (F := Ideal) .f32 (constantI S_ 32 0#32) : S_.Idx → EReal)
          Facts₀.pads_S1024x512_S1024x512_000_000 Facts₀.h_S_ := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact pad_nothing _ _ _ _ _ _ _ (fun a => by fin_cases a <;> rfl) (fun a => by fin_cases a <;> rfl)

/-- The third layer's bias: padded by nothing and reshaped to one row, its row is the vector. -/
theorem entry_b2 (c : Dev nD) :
    rowOf (V m c main_v9 : S1x512.Idx → EReal) = fun q => m ((c : Thread nD τ).loc main_arg6) (ix1 q) := by
  have e : (V m c main_v9 : S1x512.Idx → EReal)
      = shapeCast S1x512 (pad S512 ![0] ![0] ![0] (m ((c : Thread nD τ).loc main_arg6) : S512.Idx → EReal)
          (sitofp (F := Ideal) .f32 (constantI S_ 32 0#32) : S_.Idx → EReal)
          Facts₀.pads_S512_S512_000 Facts₀.h_S_) Facts₀.shapeCasts_S512_S1x512 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact rowOf_shapeCast_pad _ _ _ _ _ _ _ (fun a => by fin_cases a <;> rfl) (fun a => by fin_cases a <;> rfl) _

end Cert.ReferenceIdeal.RowsValue

end
-- ==== Proof.ReferenceArray.lean ====
/-
  The reference's result array after the run: the network applied to every row of x.

  The grid has 16 points; point t works on rows 512·t … 512·t + 511 of x and writes the same rows of the result; the
  weights and biases are the same whole arrays at every point. What a point writes back is the network on the rows
  of its block of x, which is the block of `mlp x …` at the same rows, because an entry of the network's result
  depends only on its own row. The 16 blocks cover the 8192 rows, so the array ends holding `mlp x …`.
-/
import proofs.«136291_g2000605304788880_pallasbulk_1281_9_alg».proof.Proof.Gen.ReferenceIdeal.Value
import proofs.«136291_g2000605304788880_pallasbulk_1281_9_alg».proof.Proof.ReferenceBlock
import proofs.«136291_g2000605304788880_pallasbulk_1281_9_alg».proof.Proof.ReferenceEntry

noncomputable section

namespace Cert.ReferenceIdeal.RowsValue

open Cert.ReferenceIdeal Cert.ReferenceIdeal.Gen Cert.Mlp Cert.DenseLayer Cert.PadNothing
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The index maps, decided over the grid -/

/-- Point t's block of x and of the result is block t along the rows (and the one block along the columns); every
    other operand's block is block (0, 0). -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-- Every block of rows is some point's. -/
theorem index_onto : ∀ q : Fin 16, ∃ t : Fin cfg0.N, win0_7.index t = ![q.val, 0] :=
  (by decide +kernel : ∀ q : Fin 16, ∃ t : Fin grid0.N, win0_7.index t = ![q.val, 0])

/-! ## The operands' blocks at a point -/

/-- The first layer's weight matrix is one block for the whole grid: every point's block of it is the array itself. -/
theorem blk_w0 (c : Dev nD) (t : Fin cfg0.N) : (iblk m c 1 t : S512x2048.Idx → EReal) = V m c main_v1 := by
  obtain ⟨-, -, -, -, h1, h2, h3, h4, h5, h6⟩ := index_facts t
  funext y
  show V m c main_v1 (((cfg0.win 1).blk t).view.emb y) = V m c main_v1 y
  refine congrArg _ (funext fun a => Fin.ext ?_)
  match a with
  | ⟨0, _⟩ => show win0_1.index t (0 : Fin 2) * 512 + 1 * (y 0).val = (y 0).val; have := h1 0; omega
  | ⟨1, _⟩ => show win0_1.index t (1 : Fin 2) * 2048 + 1 * (y 1).val = (y 1).val; have := h1 1; omega

/-- The first layer's bias row is one block for the whole grid: every point's block of it is the array itself. -/
theorem blk_b0 (c : Dev nD) (t : Fin cfg0.N) : (iblk m c 2 t : S1x2048.Idx → EReal) = V m c main_v3 := by
  obtain ⟨-, -, -, -, h1, h2, h3, h4, h5, h6⟩ := index_facts t
  funext y
  show V m c main_v3 (((cfg0.win 2).blk t).view.emb y) = V m c main_v3 y
  refine congrArg _ (funext fun a => Fin.ext ?_)
  match a with
  | ⟨0, _⟩ => show win0_2.index t (0 : Fin 2) * 1 + 1 * (y 0).val = (y 0).val; have := h2 0; omega
  | ⟨1, _⟩ => show win0_2.index t (1 : Fin 2) * 2048 + 1 * (y 1).val = (y 1).val; have := h2 1; omega

/-- The second layer's weight matrix is one block for the whole grid: every point's block of it is the array itself. -/
theorem blk_w1 (c : Dev nD) (t : Fin cfg0.N) : (iblk m c 3 t : S2048x1024.Idx → EReal) = V m c main_v4 := by
  obtain ⟨-, -, -, -, h1, h2, h3, h4, h5, h6⟩ := index_facts t
  funext y
  show V m c main_v4 (((cfg0.win 3).blk t).view.emb y) = V m c main_v4 y
  refine congrArg _ (funext fun a => Fin.ext ?_)
  match a with
  | ⟨0, _⟩ => show win0_3.index t (0 : Fin 2) * 2048 + 1 * (y 0).val = (y 0).val; have := h3 0; omega
  | ⟨1, _⟩ => show win0_3.index t (1 : Fin 2) * 1024 + 1 * (y 1).val = (y 1).val; have := h3 1; omega

/-- The second layer's bias row is one block for the whole grid: every point's block of it is the array itself. -/
theorem blk_b1 (c : Dev nD) (t : Fin cfg0.N) : (iblk m c 4 t : S1x1024.Idx → EReal) = V m c main_v6 := by
  obtain ⟨-, -, -, -, h1, h2, h3, h4, h5, h6⟩ := index_facts t
  funext y
  show V m c main_v6 (((cfg0.win 4).blk t).view.emb y) = V m c main_v6 y
  refine congrArg _ (funext fun a => Fin.ext ?_)
  match a with
  | ⟨0, _⟩ => show win0_4.index t (0 : Fin 2) * 1 + 1 * (y 0).val = (y 0).val; have := h4 0; omega
  | ⟨1, _⟩ => show win0_4.index t (1 : Fin 2) * 1024 + 1 * (y 1).val = (y 1).val; have := h4 1; omega

/-- The third layer's weight matrix is one block for the whole grid: every point's block of it is the array itself. -/
theorem blk_w2 (c : Dev nD) (t : Fin cfg0.N) : (iblk m c 5 t : S1024x512.Idx → EReal) = V m c main_v7 := by
  obtain ⟨-, -, -, -, h1, h2, h3, h4, h5, h6⟩ := index_facts t
  funext y
  show V m c main_v7 (((cfg0.win 5).blk t).view.emb y) = V m c main_v7 y
  refine congrArg _ (funext fun a => Fin.ext ?_)
  match a with
  | ⟨0, _⟩ => show win0_5.index t (0 : Fin 2) * 1024 + 1 * (y 0).val = (y 0).val; have := h5 0; omega
  | ⟨1, _⟩ => show win0_5.index t (1 : Fin 2) * 512 + 1 * (y 1).val = (y 1).val; have := h5 1; omega

/-- The third layer's bias row is one block for the whole grid: every point's block of it is the array itself. -/
theorem blk_b2 (c : Dev nD) (t : Fin cfg0.N) : (iblk m c 6 t : S1x512.Idx → EReal) = V m c main_v9 := by
  obtain ⟨-, -, -, -, h1, h2, h3, h4, h5, h6⟩ := index_facts t
  funext y
  show V m c main_v9 (((cfg0.win 6).blk t).view.emb y) = V m c main_v9 y
  refine congrArg _ (funext fun a => Fin.ext ?_)
  match a with
  | ⟨0, _⟩ => show win0_6.index t (0 : Fin 2) * 1 + 1 * (y 0).val = (y 0).val; have := h6 0; omega
  | ⟨1, _⟩ => show win0_6.index t (1 : Fin 2) * 512 + 1 * (y 1).val = (y 1).val; have := h6 1; omega

/-! ## What a point writes back -/

/-- WHAT POINT t WRITES BACK is block t of the network applied to every row of x. -/
theorem flushed_eq (c : Dev nD) (t : Fin cfg0.N) :
    (dats m 0 c).flushed 7 t = ((cfg0.win 7).blk t).view.read (Elt Ideal) (mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) := by
  rw [Value.flushed7,
    block_eq (iblk m c 0 t) (iblk m c 1 t) (iblk m c 2 t) (iblk m c 3 t) (iblk m c 4 t) (iblk m c 5 t) (iblk m c 6 t)]
  obtain ⟨e0, e1, e2, e3, -⟩ := index_facts t
  funext j
  show rows (iblk m c 1 t) (rowOf (iblk m c 2 t)) (iblk m c 3 t) (rowOf (iblk m c 4 t)) (iblk m c 5 t) (rowOf (iblk m c 6 t))
      (iblk m c 0 t) j
    = mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (((cfg0.win 7).blk t).view.emb j)
  unfold mlp
  refine rows_congr _ _ _ _ ?_ ?_ ?_ ?_ ?_ ?_ ?_ ?_
  · exact (blk_w0 m c t).trans (entry_w0 m c)
  · exact (congrArg rowOf (blk_b0 m c t)).trans (entry_b0 m c)
  · exact (blk_w1 m c t).trans (entry_w1 m c)
  · exact (congrArg rowOf (blk_b1 m c t)).trans (entry_b1 m c)
  · exact (blk_w2 m c t).trans (entry_w2 m c)
  · exact (congrArg rowOf (blk_b2 m c t)).trans (entry_b2 m c)
  · intro k
    rw [← entry_x m c]
    show V m c main_v0 (((cfg0.win 0).blk t).view.emb (ix2 (j 0) k))
      = V m c main_v0 (ix2 ((((cfg0.win 7).blk t).view.emb j) 0) k)
    refine congrArg _ (funext fun a => Fin.ext ?_)
    match a with
    | ⟨0, _⟩ =>
      show win0_0.index t (0 : Fin 2) * 512 + 1 * (j 0).val = win0_7.index t (0 : Fin 2) * 512 + 1 * (j 0).val
      omega
    | ⟨1, _⟩ => show win0_0.index t (1 : Fin 2) * 512 + 1 * k.val = k.val; omega
  · refine Fin.ext ?_
    show (j 1).val = win0_7.index t (1 : Fin 2) * 512 + 1 * (j 1).val
    omega

/-! ## The blocks cover the array -/

/-- An index of the result is in point t's block iff each coordinate is in the block's range on its axis. -/
theorem mem_blk (t : Fin cfg0.N) (i : S8192x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v10).slice (win0_7.rect t)).set ↔ _
  rw [View.set_slice_whole, Rect.mem_set_unit]
  exact Iff.rfl

/-- Row r of the result is in the block of point r / 512. -/
theorem covered (i : S8192x512.Idx) :
    ∃ t : Fin cfg0.N, (cfg0.win 7).flush t = true ∧ i ∈ ((cfg0.win 7).blk t).view.set := by
  have hi0 : (i 0).val < 8192 := (i 0).isLt
  have hi1 : (i 1).val < 512 := (i 1).isLt
  obtain ⟨t, ht⟩ := index_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 512 ≤ (i 1).val ∧ (i 1).val < win0_7.index t (1 : Fin 2) * 512 + 512
    omega

/-! ## The array, and the run -/

/-- THE RESULT ARRAY after the run is the network applied to every row of x. -/
theorem final (c : Dev nD) : (dats m 0 c).arrAt 7 cfg0.N = mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) :=
  (dats m 0 c).arrAt_eq_of_cover 7 _ (fun t _ => flushed_eq m c t) covered

/-- The run: every execution ends with the result at `mlp` of the arguments and the arguments unchanged. -/
theorem run : θ_run defs (onTc (τ := τ) (main (F := Ideal))) ⟨m, fun _ => 0, ρ⟩ fun r => ∀ c : Dev nD,
      r.2.mem ((c : Thread nD τ).loc main_v10) = mlp (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ReferenceIdeal.RowsValue

end
-- ==== Proof.lean ====
/-
  A fused three-layer perceptron against itself at another tiling.

  Both programs compute, for x : [8192, 512],
      relu(relu(x·W0 + b0)·W1 + b1)·W2 + b2        (widths 512 → 2048 → 1024 → 512),
  one kernel launch each, the weights and biases resident, the rows of x tiled over the grid. The kernel takes blocks
  of 4096 rows (two grid points) and inside a block works through four stretches of 1024 rows; the reference takes
  blocks of 512 rows (sixteen grid points) whole. In both, every matrix product contracts its whole axis at once and
  the host only pads by nothing and hands the biases over as one-row matrices. So at the ideal values both result
  arrays are the same function `Cert.Mlp.mlp` of the arguments, entry by entry — entry (r, c) is the network on row r
  of x, at c — and no law of the extended reals beyond reading a product as its sum is used; in particular nothing
  needs the inputs finite.

  `Cert.Mlp` (MlpRows, HostPrep) holds the network on a row, on the rows of a matrix, and as vector operations on a
  block; per program, Block reads what one grid point leaves in its output block, Entry reads the arrays the call
  finds as the arguments, and Array puts the blocks together into the run's result. The ideal pass rewrote nothing,
  so the kernel's idealization is its own text.
-/
import proofs.«136291_g2000605304788880_pallasbulk_1281_9_alg».proof.Defs
import proofs.«136291_g2000605304788880_pallasbulk_1281_9_alg».proof.Proof.Gen.Kernel
import proofs.«136291_g2000605304788880_pallasbulk_1281_9_alg».proof.Proof.Gen.Kernel.Frame
import proofs.«136291_g2000605304788880_pallasbulk_1281_9_alg».proof.Proof.Gen.KernelIdeal
import proofs.«136291_g2000605304788880_pallasbulk_1281_9_alg».proof.Proof.Gen.KernelIdeal.Frame
import proofs.«136291_g2000605304788880_pallasbulk_1281_9_alg».proof.Proof.Gen.ReferenceIdeal
import proofs.«136291_g2000605304788880_pallasbulk_1281_9_alg».proof.Proof.Gen.ReferenceIdeal.Frame
import proofs.«136291_g2000605304788880_pallasbulk_1281_9_alg».proof.Proof.Gen.Pre_finite_inputs
import proofs.«136291_g2000605304788880_pallasbulk_1281_9_alg».proof.Proof.KernelArray
import proofs.«136291_g2000605304788880_pallasbulk_1281_9_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference read at the ideal values. -/
theorem frame_referenceIdeal : Cert.frame_ReferenceIdeal := fun m ρ _ => Cert.ReferenceIdeal.Gen.frame m ρ

/-- The ideal pass rewrote no operation: there is nothing to preserve. -/
theorem preserves : Cert.preserves_Kernel_KernelIdeal := trivial

/-- From memories that agree on the arguments both runs end with the result array at the network applied to every
    row of x: the kernel's over blocks of 4096 rows, the reference's over blocks of 512 rows, one function of the
    arguments. -/
theorem algebraic : Cert.algebraic_KernelIdeal_ReferenceIdeal := by
  intro m ρ m' ρ' _ hagree
  refine ⟨fun c => Cert.Mlp.mlp
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    Cert.KernelIdeal.RowsValue.run m ρ, ?_⟩
  refine (θ_run Cert.ReferenceIdeal.defs _ _).mono (fun r h c => ⟨(h c).1.trans ?_, (h c).2⟩)
    (Cert.ReferenceIdeal.RowsValue.run m' ρ')
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
